-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel

variable [Facts]

def fn {F : FTy → Type} [FloatOps F] (main_arg0 : FVec F S128x1024 .f32) (main_arg1 : FVec F S128x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S128x1024 : Shape := ⟨2, ![128, 1024]⟩
abbrev S1x1 : Shape := ⟨2, ![1, 1]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S128x1024, .f32⟩
  | .local _ .vmem, ⟨1, _⟩ => ⟨S128x1024, .f32⟩
  | .local _ .vmem, ⟨2, _⟩ => ⟨S1x1, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S128_S128x1 : S128.ShapeCasts S128x1
  broadcasts_S128x1_S128x1024 : S128x1.Broadcasts S128x1024
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024 : Shape := ⟨2, ![128, 1024]⟩
abbrev S128x1x1024 : Shape := ⟨3, ![128, 1, 1024]⟩
abbrev S128x1024x1 : Shape := ⟨3, ![128, 1024, 1]⟩
abbrev S128x1024x1024 : Shape := ⟨3, ![128, 1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1x1024, .f32⟩
  | .hbm, ⟨3, _⟩ => ⟨S128x1024x1, .f32⟩
  | .hbm, ⟨4, _⟩ => ⟨S128x1024x1024, .f32⟩
  | .hbm, ⟨5, _⟩ => ⟨S128x1024x1024, .f32⟩
  | .hbm, ⟨6, _⟩ => ⟨S128x1024x1024, .f32⟩
  | .hbm, ⟨7, _⟩ => ⟨S128x1024x1024, .f32⟩
  | .hbm, ⟨8, _⟩ => ⟨S128x1x1024, .f32⟩
  | .hbm, ⟨9, _⟩ => ⟨S128x1024x1, .f32⟩
  | .hbm, ⟨10, _⟩ => ⟨S128x1024x1024, .f32⟩
  | .hbm, ⟨11, _⟩ => ⟨S128x1024x1024, .f32⟩
  | .hbm, ⟨12, _⟩ => ⟨S128x1024x1024, .f32⟩
  | .hbm, ⟨13, _⟩ => ⟨S128x1024x1024, .f32⟩
  | .hbm, ⟨14, _⟩ => ⟨S128x1024x1024, .f32⟩
  | .hbm, ⟨15, _⟩ => ⟨S128x1024x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S128x1024_S128x1024x1_0_1 : S128x1024.BroadcastsInDim S128x1024x1 (![0, 1] : Fin 2 → Fin S128x1024x1.rank)
  bcast_S128x1x1024_S128x1024x1024_0_1_2 : S128x1x1024.BroadcastsInDim S128x1024x1024 (![0, 1, 2] : Fin 3 → Fin S128x1024x1024.rank)
  bcast_S128x1024x1_S128x1024x1024_0_1_2 : S128x1024x1.BroadcastsInDim S128x1024x1024 (![0, 1, 2] : Fin 3 → Fin S128x1024x1024.rank)
  reducesTo_S128x1024x1024_S_d0_1_2 : S128x1024x1024.ReducesTo [0, 1, 2] S_
  h_S_ : 0 < S_.numel

variable [Facts₀]

class Facts : Prop extends Facts₀ where

variable [Facts]
-- ==== Proof.KernelRun.lean ====
/-
  The idealized kernel's run, read: its one grid point loads both whole input arrays, so the body's result is
  one function of the two argument arrays; the single 1 × 1 output block is the whole output array; the host then
  drops the unit axes and multiplies by the weight 1.
-/
import proofs.«118904_j7687991460410_2_alg».proof.Defs
import proofs.«118904_j7687991460410_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's stored value as one function of the two loaded blocks. -/
def body (x0 x1 : Vec F S128x1024 .f32) : Vec F S1x1 .f32 :=
  k0_pay1 (k0_pay6 x0) (k0_pay7 x1) (k0_pay8 x0 x1) (k0_pay9 x0 x1) (k0_pay10 x0) (k0_pay11 x1) (k0_pay12 (F := F))

/-- The loads and the store go through whole-buffer rectangles at zero offsets. -/
theorem out0_2_eq (x0 x1 : Vec F S128x1024 .f32) : out0_2 x0 x1 = body x0 x1 := by
  unfold out0_2 body
  rw [View.canon_unit_zero hz]
  simp only [View.ld_unit_zero (S := S128x1024) hz]

/-- Each input window's one block is its whole array. -/
theorem iblk0 (c : Dev nD) (t : Fin cfg0.N) : (iblk m c 0 t : Vec F S128x1024 .f32) = m ((c : Thread nD τ).loc main_arg0) := by
  funext x
  unfold iblk
  rw [View.read_apply]
  show V m c main_arg0 _ = m (c.tc.loc main_arg0) _
  unfold V
  congr 1
  funext a
  apply Fin.ext
  match a with
  | ⟨0, _⟩ => show win0_0.index t 0 * 128 + 1 * (x 0).val = (x 0).val; rw [show win0_0.index t 0 = 0 from rfl]; omega
  | ⟨1, _⟩ => show win0_0.index t 1 * 1024 + 1 * (x 1).val = (x 1).val; rw [show win0_0.index t 1 = 0 from rfl]; omega

theorem iblk1 (c : Dev nD) (t : Fin cfg0.N) : (iblk m c 1 t : Vec F S128x1024 .f32) = m ((c : Thread nD τ).loc main_arg1) := by
  funext x
  unfold iblk
  rw [View.read_apply]
  show V m c main_arg1 _ = m (c.tc.loc main_arg1) _
  unfold V
  congr 1
  funext a
  apply Fin.ext
  match a with
  | ⟨0, _⟩ => show win0_1.index t 0 * 128 + 1 * (x 0).val = (x 0).val; rw [show win0_1.index t 0 = 0 from rfl]; omega
  | ⟨1, _⟩ => show win0_1.index t 1 * 1024 + 1 * (x 1).val = (x 1).val; rw [show win0_1.index t 1 = 0 from rfl]; omega

/-- What the kernel leaves in the output array: the body's value of the two argument arrays. -/
abbrev result (c : Dev nD) : Buf (Elt F) ((c : Thread nD τ).loc main_v0) :=
  body (m ((c : Thread nD τ).loc main_arg0)) (m ((c : Thread nD τ).loc main_arg1))

/-- The one write-back writes `result`: block (0, 0) of the 1 × 1 array is the array. -/
theorem flushed_eq (c : Dev nD) (t : Fin cfg0.N) (hf : (cfg0.win 2).flush t = true) :
    (dats m 0 c).flushed 2 t = ((cfg0.win 2).blk t).view.read (Elt F) (result m c) := by
  show (cfg0.win 2).cut (grid0.coords t) ((dats m 0 c).after 2 t) = _
  rw [after0_2, out0_2_eq, iblk0, iblk1]
  have hz' : (fun a => win0_2.index t a * main_v0.ty.shape.size a) = fun _ => 0 := funext fun a => by fin_cases a <;> rfl
  exact (Memref.read_access_unit_zero (Elt F) main_v0 hz' (fun a => by rw [congrFun hz' a]; simp) (result m c)).symm

/-- So the output array ends holding `result`: the one point's block covers it. -/
theorem final_o (c : Dev nD) : (dats m 0 c).arrAt 2 cfg0.N = result m c :=
  (dats m 0 c).arrAt_eq_of_cover 2 (result m c) (flushed_eq m c) fun i =>
    ⟨t0_0, flush0_2 t0_0, by
      show i ∈ ((View.whole main_v0).slice (win0_2.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1 from by decide +kernel]; omega⟩

/-- The program's result: the output array with its unit axes dropped, times the weight's word. -/
abbrev value (c : Dev nD) : Buf (Elt F) ((c : Thread nD τ).loc main_v2) :=
  mulf (constant S_ .f32 0x3F800000#32) (shapeCast S_ (result m c) shapeCasts_S1x1_S_)

/-- The host lines after the region compute `value` from the region's output array. -/
theorem tail_eq (c : Dev nD) : Pipeline.afterTail₀ cfgs (dats m) 0 (V0 m) [hostOps1] c main_v2 = value m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v0) = result m c :=
    (Pipeline.withArrays_arr spec0 launch0.win.arr_inj c _ _ 2).trans (final_o m c)
  rw [e]
  rfl

/-- The run, read: the result at `value`, the arguments unchanged. -/
theorem run : θ_run defs (onTc (τ := τ) (main (F := F))) ⟨m, fun _ => 0, ρ⟩ fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 rfl (fun w => by fin_cases w <;> decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Hand

end
-- ==== Proof.RelationSpec.lean ====
/-
  The specification both programs are measured against, over the REALS.

  Inputs are two 128 × 1024 real matrices x and t (rows are channels). For a row f, its centred row is
  f n − (Σ_k f k) / 1024. The kernel forms, per channel, six central moments of the centred rows
  (S2x = Σ a², S4x = Σ a⁴, S2t, S4t, C22 = Σ a²b², C11 = Σ ab) and combines them as
      (2048·S4x + 6·S2x·S2x) − 2·((2048·C22 + 2·S2x·S2t) + 4·C11·C11) + (2048·S4t + 6·S2t·S2t),
  sums over the channels and scales by 2⁻²⁷. The reference sums, over every channel and every ordered
  pair (i, j) of positions, the square of (x_j − x_i)² − (t_j − t_i)², and divides by 2²⁷ = 128·1024·1024.
  Here are both formulas, the reading of a real matrix as an array of finite extended reals, the passage of a finite
  sum through the coercion ℝ → [−∞, +∞], the triple sum over a rank-3 index set, and the values of the float
  words the two programs spell.
-/
import Idealize.ShloMosaic.PureOps.Ideal
import Idealize.ShloMosaic.PureOps.Ideal.Laws
import Idealize.ShloMosaic.Lib.ValueIdx

noncomputable section

namespace Cert.RelationSpec

open Idealize.ShloMosaic Idealize.ShloMosaic.ValueIdx

/-- A real 128 × 1024 matrix as an array of (finite) extended reals. -/
def arr (x : Fin 128 → Fin 1024 → ℝ) : (⟨2, ![128, 1024]⟩ : Shape).Idx → EReal :=
  fun i => ((x (i 0) (i 1) : ℝ) : EReal)

theorem arr_ix2 (x : Fin 128 → Fin 1024 → ℝ) (c : Fin 128) (n : Fin 1024) : arr x (ix2 c n) = ((x c n : ℝ) : EReal) := rfl

/-- A row minus its mean. -/
def ctr (f : Fin 1024 → ℝ) (n : Fin 1024) : ℝ := f n - (∑ k, f k) / 1024

/-- One channel's total in the kernel's form: the central moments of the two centred rows, combined. -/
def chan (f g : Fin 1024 → ℝ) : ℝ :=
  ((2048 * (∑ n, (ctr f n * ctr f n) * (ctr f n * ctr f n)) + 6 * (∑ n, ctr f n * ctr f n) * (∑ n, ctr f n * ctr f n))
    - 2 * ((2048 * (∑ n, (ctr f n * ctr f n) * (ctr g n * ctr g n)) + 2 * (∑ n, ctr f n * ctr f n) * (∑ n, ctr g n * ctr g n))
            + 4 * (∑ n, ctr f n * ctr g n) * (∑ n, ctr f n * ctr g n)))
  + (2048 * (∑ n, (ctr g n * ctr g n) * (ctr g n * ctr g n)) + 6 * (∑ n, ctr g n * ctr g n) * (∑ n, ctr g n * ctr g n))

/-- One channel's total in the reference's form: over ordered pairs of positions. -/
def pairs (f g : Fin 1024 → ℝ) : ℝ :=
  ∑ i, ∑ j, ((f j - f i) * (f j - f i) - (g j - g i) * (g j - g i)) * ((f j - f i) * (f j - f i) - (g j - g i) * (g j - g i))

/-- What the kernel's one output element holds: the channel totals summed and scaled by 2⁻²⁷. -/
def kernelMid (x t : Fin 128 → Fin 1024 → ℝ) : ℝ := (∑ c, chan (x c) (t c)) * (1 / 134217728)

/-- The kernel's result (the host multiplies by the weight 1). -/
def kernelReal (x t : Fin 128 → Fin 1024 → ℝ) : ℝ := 1 * kernelMid x t

/-- The reference's result: the mean over all 128·1024·1024 entries, times the weight 1. -/
def refReal (x t : Fin 128 → Fin 1024 → ℝ) : ℝ := 1 * ((0 + ∑ c, pairs (x c) (t c)) / 134217728)

/-- A finite sum of reals, coerced, is the sum of the coerced terms. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The float words the programs spell, as the reals they denote -/

theorem w_zero : Ideal.ofBits .f32 0x00000000#32 = ((0 : ℝ) : EReal) := by
  simp [Ideal.ofBits, Ideal.ieee]
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_four : Ideal.ofBits .f32 0x40800000#32 = ((4 : ℝ) : EReal) := by
  simp [Ideal.ofBits, Ideal.ieee, -EReal.coe_mul]; norm_num
theorem w_six : Ideal.ofBits .f32 0x40C00000#32 = ((6 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_2048 : Ideal.ofBits .f32 0x45000000#32 = ((2048 : ℝ) : EReal) := by
  simp [Ideal.ofBits, Ideal.ieee, -EReal.coe_mul]; norm_num
theorem w_2p27 : Ideal.ofBits .f32 0x4D000000#32 = ((134217728 : ℝ) : EReal) := by
  simp [Ideal.ofBits, Ideal.ieee, -EReal.coe_mul]; norm_num
theorem w_2m27 : Ideal.ofBits .f32 0x32000000#32 = ((1 / 134217728 : ℝ) : EReal) := by
  simp [Ideal.ofBits, Ideal.ieee, -EReal.coe_mul]; norm_num

end Cert.RelationSpec

end
-- ==== Proof.KernelValue.lean ====
/-
  The value of the kernel body on finite inputs, over the extended reals with exact operations.

  Per channel c the body centres the two rows (a = x[c,·] − mean, b = t[c,·] − mean, the mean being the row sum
  divided by 1024), forms the row sums S2x = Σ a·a, S2t = Σ b·b, S4x = Σ (a·a)·(a·a), S4t = Σ (b·b)·(b·b),
  C22 = Σ (a·a)·(b·b), C11 = Σ a·b, combines them into the channel total
      (2048·S4x + 6·S2x·S2x) − 2·((2048·C22 + 2·S2x·S2t) + 4·C11·C11) + (2048·S4t + 6·S2t·S2t),
  sums the totals over the 128 channels and scales by 2⁻²⁷. On finite inputs every step stays finite, so each step is
  the coercion of the same step over the reals; the result is the coercion of kernelMid x t.
-/
import proofs.«118904_j7687991460410_2_alg».proof.Proof.KernelRun
import proofs.«118904_j7687991460410_2_alg».proof.Proof.RelationSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelValue

open Cert.KernelIdeal Cert.KernelIdeal.Gen Cert.RelationSpec
open Idealize.ShloMosaic Idealize.ShloMosaic.ValueIdx

/-! ## Layout steps read at coordinates -/

/-- An `[a]` array cast to `[a, 1]` (keepdims) reads, at `(i, z)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a row reduction inserts over channel c at position k is (c, k). -/
theorem lift_row (h : S128x1024.Reduces [1] S128) (c : Fin 128) (k : Fin 1024) :
    h.lift (ix1 c) k = ix2 c k := by
  funext a; apply Fin.ext
  match a with
  | ⟨0, _⟩ => rfl
  | ⟨1, _⟩ => rfl

/-- The index the channel reduction inserts over column z at channel c is (c, z). -/
theorem lift_chan (h : S128x1.Reduces [0] S1) (z : Fin 1) (c : Fin 128) :
    h.lift (ix1 z) c = ix2 c z := by
  funext a; apply Fin.ext
  match a with
  | ⟨0, _⟩ => rfl
  | ⟨1, _⟩ => rfl

/-- A row sum kept as a column: if the array holds the finite reals r, the column at (c, z) holds Σ_n r c n. -/
theorem rowsum_at (v : FVec Ideal S128x1024 .f32) (r : Fin 128 → Fin 1024 → ℝ)
    (hv : ∀ c n, v (ix2 c n) = ((r c n : ℝ) : EReal))
    (h : S128x1024.Reduces [1] S128) (hc : S128.ShapeCasts S128x1) (c : Fin 128) (z : Fin 1) :
    shapeCast S128x1 (multiReduction (F := Ideal) .add [1] S128 v 0x00000000#32 h (.inl rfl) rfl) hc (ix2 c z)
      = ((∑ n, r c n : ℝ) : EReal) := by
  rw [shapeCast_a_a1_apply, coe_sum]
  refine (Ideal.multiReduction_add_single v _ h _ _ (ix1 c)).trans ?_
  show ∑ k : Fin 1024, v (h.lift (ix1 c) k) = _
  exact Finset.sum_congr rfl fun k _ => by rw [lift_row, hv]

/-- The channel sum of a column: if the column holds the finite reals r, the one entry holds Σ_c r c. -/
theorem chansum_at (w : FVec Ideal S128x1 .f32) (r : Fin 128 → ℝ)
    (hw : ∀ c z, w (ix2 c z) = ((r c : ℝ) : EReal))
    (h : S128x1.Reduces [0] S1) (hc : S1.ShapeCasts S1x1) (u z : Fin 1) :
    shapeCast S1x1 (multiReduction (F := Ideal) .add [0] S1 w 0x00000000#32 h (.inl rfl) rfl) hc (ix2 u z)
      = ((∑ c, r c : ℝ) : EReal) := by
  rw [shapeCast_a_a1_apply, coe_sum]
  refine (Ideal.multiReduction_add_single w _ h _ _ (ix1 u)).trans ?_
  show ∑ k : Fin 128, w (h.lift (ix1 u) k) = _
  exact Finset.sum_congr rfl fun k _ => by rw [lift_chan, hw]

/-- A row minus its mean: if the array holds the finite reals f, the centred array at (c, n) holds ctr (f c) n. -/
theorem centre_at (v : FVec Ideal S128x1024 .f32) (f : Fin 128 → Fin 1024 → ℝ)
    (hv : ∀ c n, v (ix2 c n) = ((f c n : ℝ) : EReal))
    (h : S128x1024.Reduces [1] S128) (hc : S128.ShapeCasts S128x1) (hb : S128x1.Broadcasts S128x1024)
    (c : Fin 128) (n : Fin 1024) :
    subf v (broadcastTo S128x1024
        (divf (shapeCast S128x1 (multiReduction (F := Ideal) .add [1] S128 v 0x00000000#32 h (.inl rfl) rfl) hc)
          (broadcast S128x1 (Scalar.ofBits (F := Ideal) .f32 0x44800000#32))) hb) (ix2 c n)
      = ((ctr (f c) n : ℝ) : EReal) := by
  rw [subf_apply, broadcastTo_a1_ab_apply, divf_apply, rowsum_at v f hv, broadcast_apply, hv, Ideal.ofBits_def,
    w_1024, Ideal.div_coe (by norm_num : (1024 : ℝ) ≠ 0), ← EReal.coe_mul, ← EReal.coe_sub, mul_one_div]
  rfl

/-! ## The payloads at coordinates -/

/-- The centred first matrix. -/
theorem pay2_at (x : Fin 128 → Fin 1024 → ℝ) (c : Fin 128) (n : Fin 1024) :
    k0_pay2 (F := Ideal) (arr x) (ix2 c n) = ((ctr (x c) n : ℝ) : EReal) :=
  centre_at (arr x) x (fun _ _ => rfl) _ _ _ c n

/-- The centred second matrix. -/
theorem pay3_at (t : Fin 128 → Fin 1024 → ℝ) (c : Fin 128) (n : Fin 1024) :
    k0_pay3 (F := Ideal) (arr t) (ix2 c n) = ((ctr (t c) n : ℝ) : EReal) :=
  centre_at (arr t) t (fun _ _ => rfl) _ _ _ c n

/-- The squares a·a. -/
theorem pay4_at (x : Fin 128 → Fin 1024 → ℝ) (c : Fin 128) (n : Fin 1024) :
    k0_pay4 (F := Ideal) (arr x) (ix2 c n) = ((ctr (x c) n * ctr (x c) n : ℝ) : EReal) := by
  unfold k0_pay4
  rw [mulf_apply, pay2_at, ← EReal.coe_mul]

/-- The squares b·b. -/
theorem pay5_at (t : Fin 128 → Fin 1024 → ℝ) (c : Fin 128) (n : Fin 1024) :
    k0_pay5 (F := Ideal) (arr t) (ix2 c n) = ((ctr (t c) n * ctr (t c) n : ℝ) : EReal) := by
  unfold k0_pay5
  rw [mulf_apply, pay3_at, ← EReal.coe_mul]

/-- S2x = Σ a·a. -/
theorem pay6_at (x : Fin 128 → Fin 1024 → ℝ) (c : Fin 128) (z : Fin 1) :
    k0_pay6 (F := Ideal) (arr x) (ix2 c z) = ((∑ n, ctr (x c) n * ctr (x c) n : ℝ) : EReal) :=
  rowsum_at (k0_pay4 (F := Ideal) (arr x)) (fun c n => ctr (x c) n * ctr (x c) n) (pay4_at x) _ _ c z

/-- S2t = Σ b·b. -/
theorem pay7_at (t : Fin 128 → Fin 1024 → ℝ) (c : Fin 128) (z : Fin 1) :
    k0_pay7 (F := Ideal) (arr t) (ix2 c z) = ((∑ n, ctr (t c) n * ctr (t c) n : ℝ) : EReal) :=
  rowsum_at (k0_pay5 (F := Ideal) (arr t)) (fun c n => ctr (t c) n * ctr (t c) n) (pay5_at t) _ _ c z

/-- C22 = Σ (a·a)·(b·b). -/
theorem pay8_at (x t : Fin 128 → Fin 1024 → ℝ) (c : Fin 128) (z : Fin 1) :
    k0_pay8 (F := Ideal) (arr x) (arr t) (ix2 c z)
      = ((∑ n, (ctr (x c) n * ctr (x c) n) * (ctr (t c) n * ctr (t c) n) : ℝ) : EReal) :=
  rowsum_at (mulf (k0_pay4 (F := Ideal) (arr x)) (k0_pay5 (F := Ideal) (arr t)))
    (fun c n => (ctr (x c) n * ctr (x c) n) * (ctr (t c) n * ctr (t c) n))
    (fun c n => by rw [mulf_apply, pay4_at, pay5_at, ← EReal.coe_mul]) _ _ c z

/-- C11 = Σ a·b. -/
theorem pay9_at (x t : Fin 128 → Fin 1024 → ℝ) (c : Fin 128) (z : Fin 1) :
    k0_pay9 (F := Ideal) (arr x) (arr t) (ix2 c z) = ((∑ n, ctr (x c) n * ctr (t c) n : ℝ) : EReal) :=
  rowsum_at (mulf (k0_pay2 (F := Ideal) (arr x)) (k0_pay3 (F := Ideal) (arr t)))
    (fun c n => ctr (x c) n * ctr (t c) n)
    (fun c n => by rw [mulf_apply, pay2_at, pay3_at, ← EReal.coe_mul]) _ _ c z

/-- S4x = Σ (a·a)·(a·a), kept as a column. -/
theorem s4x_at (x : Fin 128 → Fin 1024 → ℝ) (h : S128x1024.Reduces [1] S128) (hc : S128.ShapeCasts S128x1)
    (c : Fin 128) (z : Fin 1) :
    shapeCast S128x1 (multiReduction (F := Ideal) .add [1] S128
        (mulf (k0_pay4 (F := Ideal) (arr x)) (k0_pay4 (F := Ideal) (arr x))) 0x00000000#32 h (.inl rfl) rfl) hc (ix2 c z)
      = ((∑ n, (ctr (x c) n * ctr (x c) n) * (ctr (x c) n * ctr (x c) n) : ℝ) : EReal) :=
  rowsum_at _ (fun c n => (ctr (x c) n * ctr (x c) n) * (ctr (x c) n * ctr (x c) n))
    (fun c n => by rw [mulf_apply, pay4_at, ← EReal.coe_mul]) h hc c z

/-- S4t = Σ (b·b)·(b·b), kept as a column. -/
theorem s4t_at (t : Fin 128 → Fin 1024 → ℝ) (h : S128x1024.Reduces [1] S128) (hc : S128.ShapeCasts S128x1)
    (c : Fin 128) (z : Fin 1) :
    shapeCast S128x1 (multiReduction (F := Ideal) .add [1] S128
        (mulf (k0_pay5 (F := Ideal) (arr t)) (k0_pay5 (F := Ideal) (arr t))) 0x00000000#32 h (.inl rfl) rfl) hc (ix2 c z)
      = ((∑ n, (ctr (t c) n * ctr (t c) n) * (ctr (t c) n * ctr (t c) n) : ℝ) : EReal) :=
  rowsum_at _ (fun c n => (ctr (t c) n * ctr (t c) n) * (ctr (t c) n * ctr (t c) n))
    (fun c n => by rw [mulf_apply, pay5_at, ← EReal.coe_mul]) h hc c z

/-- 2048·S4x + 6·S2x·S2x. -/
theorem pay10_at (x : Fin 128 → Fin 1024 → ℝ) (c : Fin 128) (z : Fin 1) :
    k0_pay10 (F := Ideal) (arr x) (ix2 c z)
      = ((2048 * (∑ n, (ctr (x c) n * ctr (x c) n) * (ctr (x c) n * ctr (x c) n))
          + 6 * (∑ n, ctr (x c) n * ctr (x c) n) * (∑ n, ctr (x c) n * ctr (x c) n) : ℝ) : EReal) := by
  unfold k0_pay10
  rw [addf_apply, mulf_apply, mulf_apply, mulf_apply, broadcast_apply, broadcast_apply, s4x_at, pay6_at,
    Ideal.ofBits_def, Ideal.ofBits_def, w_2048, w_six,
    ← EReal.coe_mul, ← EReal.coe_mul, ← EReal.coe_mul, ← EReal.coe_add]

/-- 2048·S4t. -/
theorem pay11_at (t : Fin 128 → Fin 1024 → ℝ) (c : Fin 128) (z : Fin 1) :
    k0_pay11 (F := Ideal) (arr t) (ix2 c z)
      = ((2048 * (∑ n, (ctr (t c) n * ctr (t c) n) * (ctr (t c) n * ctr (t c) n)) : ℝ) : EReal) := by
  unfold k0_pay11
  rw [mulf_apply, broadcast_apply, s4t_at, Ideal.ofBits_def, w_2048, ← EReal.coe_mul]

/-- The constant 6. -/
theorem pay12_at (c : Fin 128) (z : Fin 1) : k0_pay12 (F := Ideal) (ix2 c z) = ((6 : ℝ) : EReal) := by
  unfold k0_pay12
  rw [broadcast_apply, Ideal.ofBits_def, w_six]

/-! ## The stored value -/

/-- The one stored entry: the channel totals summed over the channels and scaled by 2⁻²⁷. -/
theorem pay1_at (x t : Fin 128 → Fin 1024 → ℝ) (u z : Fin 1) :
    k0_pay1 (F := Ideal) (k0_pay6 (arr x)) (k0_pay7 (arr t)) (k0_pay8 (arr x) (arr t)) (k0_pay9 (arr x) (arr t))
        (k0_pay10 (arr x)) (k0_pay11 (arr t)) (k0_pay12 (F := Ideal)) (ix2 u z)
      = ((kernelMid x t : ℝ) : EReal) := by
  unfold k0_pay1
  rw [mulf_apply, broadcast_apply, Ideal.ofBits_def (φ := .f32) 0x32000000#32, w_2m27, chansum_at _ (fun c => chan (x c) (t c)),
    ← EReal.coe_mul]
  · rfl
  · intro c z
    simp only [addf_apply, subf_apply, mulf_apply, broadcast_apply, pay6_at, pay7_at, pay8_at, pay9_at, pay10_at,
      pay11_at, pay12_at, Ideal.ofBits_def, w_2048, w_two, w_four,
      ← EReal.coe_mul, ← EReal.coe_add, ← EReal.coe_sub]
    rfl

open Cert.KernelIdeal Cert.KernelIdeal.Gen Cert.RelationSpec Idealize.ShloMosaic in
/-- On real matrices the body's 1 × 1 result holds, at its one index, the coercion of the scaled sum of channel totals. -/
theorem body_value (x t : Fin 128 → Fin 1024 → ℝ) :
    Cert.KernelIdeal.Hand.body (F := Ideal) (arr x) (arr t) = fun _ => ((kernelMid x t : ℝ) : EReal) := by
  funext i
  obtain ⟨u, z, rfl⟩ : ∃ u z, i = ix2 u z := ⟨i 0, i 1, eq_ix2 i⟩
  exact pay1_at x t u z

end Cert.KernelValue

end
-- ==== Proof.RefValue.lean ====
/-
  The value of the reference program on finite inputs, over the extended reals with exact operations.

  The reference forms, for every channel c and every ordered pair of positions (i, j), the differences
  x[c,j] − x[c,i] and t[c,j] − t[c,i] (two broadcasts of each matrix to rank 3, subtracted), squares each,
  subtracts the squares, squares the result, sums over all (c, i, j) from zero, divides by 2²⁷ and multiplies
  by the weight 1. On finite inputs every step stays finite, so each step is the coercion of the same step over
  the reals; the total is the coercion of refReal x t.
-/
import proofs.«118904_j7687991460410_2_alg».proof.Proof.Gen.ReferenceIdeal.Read
import proofs.«118904_j7687991460410_2_alg».proof.Proof.RelationSpec

noncomputable section

namespace Cert.RefValue

open Cert.ReferenceIdeal Cert.ReferenceIdeal.Gen Cert.ReferenceIdeal.Read Cert.RelationSpec
open Idealize.ShloMosaic Idealize.ShloMosaic.ValueIdx

/-! ## Where each broadcast reads its operand -/

/-- The first broadcast pair (axes [0, 2], then all three) reads position (c, j) at (c, i, j). -/
theorem idx_v0_v2 (c : Fin 128) (i j : Fin 1024) : idx_main_v0 (idx_main_v2 (ix3 c i j)) = ix2 c j := by
  funext a; match a with | ⟨0, _⟩ => rfl | ⟨1, _⟩ => rfl

/-- The second broadcast pair (axes [0, 1], then all three) reads position (c, i) at (c, i, j). -/
theorem idx_v1_v3 (c : Fin 128) (i j : Fin 1024) : idx_main_v1 (idx_main_v3 (ix3 c i j)) = ix2 c i := by
  funext a; match a with | ⟨0, _⟩ => rfl | ⟨1, _⟩ => rfl

theorem idx_v6_v8 (c : Fin 128) (i j : Fin 1024) : idx_main_v6 (idx_main_v8 (ix3 c i j)) = ix2 c j := by
  funext a; match a with | ⟨0, _⟩ => rfl | ⟨1, _⟩ => rfl

theorem idx_v7_v9 (c : Fin 128) (i j : Fin 1024) : idx_main_v7 (idx_main_v9 (ix3 c i j)) = ix2 c i := by
  funext a; match a with | ⟨0, _⟩ => rfl | ⟨1, _⟩ => rfl

/-! ## One entry of the rank-3 arrays -/

/-- The difference of the first matrix at (c, i, j) is x[c,j] − x[c,i]. -/
theorem v4_at (x : Fin 128 → Fin 1024 → ℝ) (c : Fin 128) (i j : Fin 1024) :
    val_main_v4 (F := Ideal) (arr x) (ix3 c i j) = ((x c j - x c i : ℝ) : EReal) := by
  rw [val_main_v4_apply, val_main_v2_apply, val_main_v0_apply, val_main_v3_apply, val_main_v1_apply,
    idx_v0_v2, idx_v1_v3, arr_ix2, arr_ix2, Ideal.subf_def, ← EReal.coe_sub]

/-- The difference of the second matrix at (c, i, j) is t[c,j] − t[c,i]. -/
theorem v10_at (t : Fin 128 → Fin 1024 → ℝ) (c : Fin 128) (i j : Fin 1024) :
    val_main_v10 (F := Ideal) (arr t) (ix3 c i j) = ((t c j - t c i : ℝ) : EReal) := by
  rw [val_main_v10_apply, val_main_v8_apply, val_main_v6_apply, val_main_v9_apply, val_main_v7_apply,
    idx_v6_v8, idx_v7_v9, arr_ix2, arr_ix2, Ideal.subf_def, ← EReal.coe_sub]

/-- The summand at (c, i, j): the square of the difference of the two squared differences. -/
theorem v13_at (x t : Fin 128 → Fin 1024 → ℝ) (c : Fin 128) (i j : Fin 1024) :
    val_main_v13 (F := Ideal) (arr x) (arr t) (ix3 c i j)
      = ((((x c j - x c i) * (x c j - x c i) - (t c j - t c i) * (t c j - t c i))
          * ((x c j - x c i) * (x c j - x c i) - (t c j - t c i) * (t c j - t c i)) : ℝ) : EReal) := by
  rw [val_main_v13_apply, val_main_v12_apply, val_main_v5_apply, val_main_v11_apply, v4_at, v10_at,
    Ideal.mulf_def, Ideal.mulf_def, Ideal.subf_def, Ideal.mulf_def,
    ← EReal.coe_mul, ← EReal.coe_mul, ← EReal.coe_sub, ← EReal.coe_mul]

/-! ## The sum over all entries -/

/-- The sum of all entries is the sum over the channels of the pair sums. -/
theorem v13_sum (x t : Fin 128 → Fin 1024 → ℝ) :
    ∑ k : S128x1024x1024.Idx, val_main_v13 (F := Ideal) (arr x) (arr t) k
      = ((∑ c, pairs (x c) (t c) : ℝ) : EReal) := by
  rw [sum_idx3, coe_sum]
  refine Finset.sum_congr rfl fun c _ => ?_
  unfold pairs
  rw [coe_sum]
  refine Finset.sum_congr rfl fun i _ => ?_
  rw [coe_sum]
  refine Finset.sum_congr rfl fun j _ => ?_
  exact v13_at x t c i j

/-! ## The result -/

open Cert.ReferenceIdeal Cert.RelationSpec Idealize.ShloMosaic in
/-- On real matrices the reference's result is the coercion of its real formula: zero plus the sum over all
    channels and ordered pairs, divided by 2²⁷ (a product with the real 1/2²⁷), times the real 1. -/
theorem ref_value (x t : Fin 128 → Fin 1024 → ℝ) :
    Cert.ReferenceIdeal.Read.val_main_v16 (F := Ideal) (arr x) (arr t) = fun _ => ((refReal x t : ℝ) : EReal) := by
  funext i
  rw [val_main_v16_apply, val_main_cst_1_apply, val_main_v15_apply, val_main_v14_apply, val_main_cst_apply,
    val_main_cst_0_apply, v13_sum, Ideal.mulf_def, Ideal.hostDivf_def, Ideal.ofBits_def, Ideal.ofBits_def,
    Ideal.ofBits_def, w_one, w_zero, w_2p27, ← EReal.coe_add,
    Ideal.div_coe (by norm_num : (134217728 : ℝ) ≠ 0), ← EReal.coe_mul, ← EReal.coe_mul, mul_one_div]
  rfl

end Cert.RefValue

end
-- ==== Proof.FiniteInputs.lean ====
/-
  Finiteness: from the precondition to "both arguments are real matrices".

  The precondition computes, for each of the two 128 × 1024 arguments, the conjunction over every entry v of the
  comparison |v| < +∞ (the word 0x7F800000 is +∞), and then the conjunction of the two results; the hypothesis says
  the outcome is the bit 1. A conjunction that is 1 had only 1s, so every entry v of either argument satisfies
  max v (−v) < ⊤ in the extended reals. That excludes v = ⊤ (max ⊤ ⊥ = ⊤) and v = ⊥ (max ⊥ ⊤ = ⊤), so v is the
  coercion of a real. Choosing that real at every index gives a real matrix whose reading as an array of extended
  reals is the argument.
-/
import proofs.«118904_j7687991460410_2_alg».proof.Pre_finite_inputs
import proofs.«118904_j7687991460410_2_alg».proof.Proof.Gen.Pre_finite_inputs
import proofs.«118904_j7687991460410_2_alg».proof.Proof.RelationSpec
import Idealize.ShloMosaic.Lib.ReduceAll

namespace Cert.FiniteInputs

open Idealize.ShloMosaic Idealize.ShloMosaic.ValueIdx Cert.RelationSpec
open Cert.Pre_finite_inputs (S128x1024 S_)

/-- The rank-0 index set has one element. -/
instance : Subsingleton S_.Idx := ⟨fun a b => funext fun d => d.elim0⟩

/-- An extended real whose absolute value max v (−v) is below ⊤ is a real: at ⊥ and at ⊤ the maximum is ⊤. -/
theorem real_of_abs_lt_top (v : EReal) (h : max v (-v) < ⊤) : ∃ r : ℝ, v = (r : EReal) := by
  induction v using EReal.rec with
  | bot => simp at h
  | coe r => exact ⟨r, rfl⟩
  | top => simp at h

/-- The float word 0x7F800000 (all-ones exponent, zero significand, sign +) denotes +∞. -/
theorem top_word : Ideal.ofBits .f32 0x7F800000#32 = (⊤ : EReal) := by simp [Ideal.ofBits, Ideal.ieee]

/-- One entry: the comparison |v| < +∞ coming out 1 says v is a real. -/
theorem real_of_olt_inf (v : EReal) (h : Ideal.cmp .olt (max v (-v)) (Ideal.ofBits .f32 0x7F800000#32) = 1#1) :
    ∃ r : ℝ, v = (r : EReal) := by
  rw [top_word] at h
  refine real_of_abs_lt_top v ?_
  by_contra hn
  simp [Ideal.cmp, hn] at h

/-- One argument: the conjunction over all entries of |a i| < +∞ being 1 says every entry is a real. -/
theorem all_real (a : FVec Ideal S128x1024 .f32) (hb : S_.BroadcastsInDim S128x1024 (![] : Fin 0 → Fin S128x1024.rank))
    (init : S_.Idx → BitVec 1) (hr : S128x1024.ReducesTo [0, 1] S_) (hu : 0 < S_.numel)
    (e : Host.reduce IntOp.andi
          (cmpf CmpFPredicate.olt (Host.absf a)
            (broadcastInDim S128x1024 ![] hb (constant (F := Ideal) S_ FTy.f32 0x7F800000#32)))
          init hr hu ix0 = 1#1) (i : S128x1024.Idx) : ∃ r : ℝ, a i = (r : EReal) := by
  -- every compared element is 1; at index i the comparison reads max (a i) (−a i) < the broadcast word
  have hi := Host.reduce_andi_all _ init hr hu ix0 e i
  exact real_of_olt_inf (a i) hi

/-- An array all of whose entries are reals is a real matrix read as an array of extended reals. -/
theorem arr_of_real (a : FVec Ideal S128x1024 .f32) (ha : ∀ i, ∃ r : ℝ, a i = (r : EReal)) :
    ∃ x : Fin 128 → Fin 1024 → ℝ, a = arr x := by
  choose f hf using ha
  refine ⟨fun c n => f (ix2 c n), funext fun i => ?_⟩
  obtain ⟨c, n, rfl⟩ : ∃ (c : Fin 128) (n : Fin 1024), i = ix2 c n := ⟨_, _, eq_ix2 i⟩
  rw [hf, arr_ix2]

open Cert.RelationSpec Idealize.ShloMosaic in
/-- The precondition holding says both arguments are real matrices read as arrays of extended reals. -/
theorem real_of_pre [Cert.Pre_finite_inputs.Facts]
    (a0 a1 : FVec Ideal Cert.Pre_finite_inputs.S128x1024 .f32)
    (h : Cert.Pre_finite_inputs.fn (F := Ideal) a0 a1 = (fun _ => 1#1)) :
    ∃ x t : Fin 128 → Fin 1024 → ℝ, a0 = arr x ∧ a1 = arr t := by
  have h0 := congrFun h ValueIdx.ix0
  dsimp only [Cert.Pre_finite_inputs.fn] at h0
  -- the final "and" of the two conjunctions is 1, so each conjunction is 1
  obtain ⟨e0, e1⟩ := IntOp.andi_eq_one.1 (show IntOp.andi _ _ = 1#1 from h0)
  obtain ⟨x, hx⟩ := arr_of_real a0 (all_real a0 _ _ _ _ e0)
  obtain ⟨t, ht⟩ := arr_of_real a1 (all_real a1 _ _ _ _ e1)
  exact ⟨x, t, hx, ht⟩

end Cert.FiniteInputs
-- ==== Proof.LibPairMoments.lean ====
import Mathlib

/-!
# Pairwise differences and central moments

For two real families `f g : ι → ℝ` over a finite index type with `N` elements, the double sum
over ordered pairs `(i, j)` of `((f j - f i)² - (g j - g i)²)²` can be written with the central
moments of `f` and `g` alone.  Put `a n = f n - mean f`, `b n = g n - mean g`.  Then
`Σ a = Σ b = 0`, `f j - f i = a j - a i`, `g j - g i = b j - b i`, and with
`A2 = Σ a²`, `A4 = Σ a⁴`, `B2 = Σ b²`, `B4 = Σ b⁴`, `C22 = Σ a² b²`, `C11 = Σ a b`:

* `Σ_{i,j} (a j - a i)⁴ = 2 N A4 + 6 A2²`,
* `Σ_{i,j} (a j - a i)² (b j - b i)² = 2 N C22 + 2 A2 B2 + 4 C11²`,
* `Σ_{i,j} (b j - b i)⁴ = 2 N B4 + 6 B2²`,

because, after expanding, every monomial that carries a lone factor `a` or a lone factor `b` at
one of the two indices sums to zero over that index.  The statement follows from
`(u² - v²)² = u⁴ - 2 u² v² + v⁴`.
-/

namespace Cert.LibPairMoments

open Finset

/-- A double sum of a product of a function of the inner index and a function of the outer index
is the product of the two single sums. -/
theorem sum_sum_mul {ι : Type*} [Fintype ι] (p q : ι → ℝ) :
    (∑ i, ∑ j, p j * q i) = (∑ j, p j) * (∑ i, q i) := by
  rw [Finset.sum_mul_sum, Finset.sum_comm]

/-- A family minus its mean sums to zero. -/
theorem sum_centred {ι : Type*} [Fintype ι] (N : ℝ) (hN : (Fintype.card ι : ℝ) = N) (hN0 : N ≠ 0)
    (f a : ι → ℝ) (ha : ∀ n, a n = f n - (∑ k, f k) / N) : (∑ n, a n) = 0 := by
  simp only [ha, Finset.sum_sub_distrib, Finset.sum_const, Finset.card_univ, nsmul_eq_mul, hN]
  field_simp
  ring

/-- For two families `a`, `b` that each sum to zero over an index type with `N` elements,
`Σ_{i,j} (a j - a i)² (b j - b i)² = 2 N Σ a² b² + 2 (Σ a²)(Σ b²) + 4 (Σ a b)²`.
Expanding the product gives nine monomials, each a function of `j` times a function of `i`; the
four that carry a lone `a` or a lone `b` at one index vanish. -/
theorem pair_mixed {ι : Type*} [Fintype ι] (N : ℝ) (hN : (Fintype.card ι : ℝ) = N)
    (a b : ι → ℝ) (ha0 : (∑ n, a n) = 0) (hb0 : (∑ n, b n) = 0) :
    (∑ i, ∑ j, ((a j - a i) * (a j - a i)) * ((b j - b i) * (b j - b i)))
      = 2 * N * (∑ n, (a n * a n) * (b n * b n)) + 2 * (∑ n, a n * a n) * (∑ n, b n * b n)
        + 4 * (∑ n, a n * b n) * (∑ n, a n * b n) := by
  -- the nine monomials, each written as (a function of j) * (a function of i)
  have key : ∀ i j, ((a j - a i) * (a j - a i)) * ((b j - b i) * (b j - b i))
      = ((a j * a j) * (b j * b j)) * 1
        - (2 * (a j * a j * b j)) * b i
        + (a j * a j) * (b i * b i)
        - (2 * (a j * (b j * b j))) * a i
        + (4 * (a j * b j)) * (a i * b i)
        - (2 * a j) * (a i * (b i * b i))
        + (b j * b j) * (a i * a i)
        - (2 * b j) * (a i * a i * b i)
        + 1 * ((a i * a i) * (b i * b i)) := by
    intro i j
    ring
  -- each double sum factors as a product of two single sums
  simp only [key, Finset.sum_add_distrib, Finset.sum_sub_distrib, sum_sum_mul]
  -- numerals come out of the single sums; Σ 1 = N; Σ a = Σ b = 0
  simp only [← Finset.mul_sum, Finset.sum_const, Finset.card_univ, nsmul_eq_mul, mul_one, hN,
    ha0, hb0]
  ring

/-- The double sum over ordered pairs of `((f j - f i)² - (g j - g i)²)²` in terms of the central
moments of `f` and `g`: with `a`, `b` the centred families,
`Σ_{i,j} ((f j - f i)² - (g j - g i)²)²
  = (2 N Σ a⁴ + 6 (Σ a²)²) - 2 (2 N Σ a² b² + 2 (Σ a²)(Σ b²) + 4 (Σ a b)²) + (2 N Σ b⁴ + 6 (Σ b²)²)`. -/
theorem pair_moments {ι : Type*} [Fintype ι] (N : ℝ) (hN : (Fintype.card ι : ℝ) = N) (hN0 : N ≠ 0) (f g : ι → ℝ)
    (a b : ι → ℝ) (ha : ∀ n, a n = f n - (∑ k, f k) / N) (hb : ∀ n, b n = g n - (∑ k, g k) / N) :
    (∑ i, ∑ j, ((f j - f i) * (f j - f i) - (g j - g i) * (g j - g i)) * ((f j - f i) * (f j - f i) - (g j - g i) * (g j - g i)))
    = ((2 * N * (∑ n, (a n * a n) * (a n * a n)) + 6 * (∑ n, a n * a n) * (∑ n, a n * a n))
        - 2 * ((2 * N * (∑ n, (a n * a n) * (b n * b n)) + 2 * (∑ n, a n * a n) * (∑ n, b n * b n))
               + 4 * (∑ n, a n * b n) * (∑ n, a n * b n)))
      + (2 * N * (∑ n, (b n * b n) * (b n * b n)) + 6 * (∑ n, b n * b n) * (∑ n, b n * b n)) := by
  -- the centred families sum to zero
  have ha0 : (∑ n, a n) = 0 := sum_centred N hN hN0 f a ha
  have hb0 : (∑ n, b n) = 0 := sum_centred N hN hN0 g b hb
  -- differences of the families are differences of the centred families
  have hf : ∀ i j, f j - f i = a j - a i := by
    intro i j
    rw [ha j, ha i]
    ring
  have hg : ∀ i j, g j - g i = b j - b i := by
    intro i j
    rw [hb j, hb i]
    ring
  -- (u² - v²)² = u⁴ - 2 u² v² + v⁴, pointwise
  have hpt : ∀ i j,
      ((f j - f i) * (f j - f i) - (g j - g i) * (g j - g i))
        * ((f j - f i) * (f j - f i) - (g j - g i) * (g j - g i))
      = ((a j - a i) * (a j - a i)) * ((a j - a i) * (a j - a i))
        - 2 * (((a j - a i) * (a j - a i)) * ((b j - b i) * (b j - b i)))
        + ((b j - b i) * (b j - b i)) * ((b j - b i) * (b j - b i)) := by
    intro i j
    rw [hf i j, hg i j]
    ring
  simp only [hpt, Finset.sum_add_distrib, Finset.sum_sub_distrib, ← Finset.mul_sum]
  rw [pair_mixed N hN a a ha0 ha0, pair_mixed N hN a b ha0 hb0, pair_mixed N hN b b hb0 hb0]
  ring

end Cert.LibPairMoments
-- ==== Proof.RelationLaw.lean ====
/-
  The law that joins the two programs, over the reals: for every channel the combination of central moments
  the kernel forms is the sum over ordered pairs the reference forms (the general identity, at rows of length 1024,
  so 2·N = 2048), hence the two results — the channel totals summed and scaled by 2⁻²⁷, against their sum divided by
  2²⁷ — are one real number.
-/
import proofs.«118904_j7687991460410_2_alg».proof.Proof.LibPairMoments
import proofs.«118904_j7687991460410_2_alg».proof.Proof.RelationSpec

noncomputable section

namespace Cert.RelationLaw

open Cert.RelationSpec

/-- One channel: the moment form is the pair form. -/
theorem chan_eq_pairs (f g : Fin 1024 → ℝ) : chan f g = pairs f g := by
  have h := Cert.LibPairMoments.pair_moments (ι := Fin 1024) (1024 : ℝ) (by simp) (by norm_num) f g (ctr f) (ctr g)
    (fun _ => rfl) (fun _ => rfl)
  unfold chan pairs
  rw [h]
  norm_num

/-- The kernel's real result is the reference's. -/
theorem kernelReal_eq_refReal (x t : Fin 128 → Fin 1024 → ℝ) : kernelReal x t = refReal x t := by
  unfold kernelReal kernelMid refReal
  simp only [chan_eq_pairs]
  ring

end Cert.RelationLaw

end
-- ==== Proof.lean ====
/-
  The certificate of the relation loss: a kernel that, per channel, centres each of the two rows, forms six central
  moments and combines them, against the reference's mean over all ordered pairs of positions of
  ((x_j − x_i)² − (t_j − t_i)²)².

  Over the reals the two are one number: with a, b the centred rows (Σ a = Σ b = 0, and differences of a row are
  differences of its centred row),
      Σ_{i,j} (a_j − a_i)⁴ = 2N·Σa⁴ + 6(Σa²)²,   Σ_{i,j} (a_j − a_i)²(b_j − b_i)² = 2N·Σa²b² + 2(Σa²)(Σb²) + 4(Σab)²,
  and (u² − v²)² = u⁴ − 2u²v² + v⁴; the rows have N = 1024 entries, the scale 2⁻²⁷ is the reciprocal of the count
  128·1024·1024 = 2²⁷. On the extended reals the law needs the entries finite (it cancels the mean and distributes
  products over sums), which is what the precondition says: so both runs are read at real matrices, every
  intermediate value is the coercion of a real, and the two results are the coercions of equal reals.

  The three frames: the two kernels' are the generated frame runs; the reference's is its generated run with the
  result dropped. The idealization rewrote nothing, so the kernel's idealization is its own text.
-/
import proofs.«118904_j7687991460410_2_alg».proof.Defs
import proofs.«118904_j7687991460410_2_alg».proof.Proof.Gen.Kernel
import proofs.«118904_j7687991460410_2_alg».proof.Proof.Gen.Kernel.Skeleton
import proofs.«118904_j7687991460410_2_alg».proof.Proof.Gen.Kernel.Launch
import proofs.«118904_j7687991460410_2_alg».proof.Proof.Gen.Kernel.Points
import proofs.«118904_j7687991460410_2_alg».proof.Proof.Gen.Kernel.Frame
import proofs.«118904_j7687991460410_2_alg».proof.Proof.Gen.KernelIdeal
import proofs.«118904_j7687991460410_2_alg».proof.Proof.Gen.KernelIdeal.Skeleton
import proofs.«118904_j7687991460410_2_alg».proof.Proof.Gen.KernelIdeal.Launch
import proofs.«118904_j7687991460410_2_alg».proof.Proof.Gen.KernelIdeal.Points
import proofs.«118904_j7687991460410_2_alg».proof.Proof.Gen.KernelIdeal.Frame
import proofs.«118904_j7687991460410_2_alg».proof.Proof.Gen.ReferenceIdeal
import proofs.«118904_j7687991460410_2_alg».proof.Proof.Gen.Pre_finite_inputs
import proofs.«118904_j7687991460410_2_alg».proof.Proof.Gen.ReferenceIdeal.Read
import proofs.«118904_j7687991460410_2_alg».proof.Proof.KernelRun
import proofs.«118904_j7687991460410_2_alg».proof.Proof.KernelValue
import proofs.«118904_j7687991460410_2_alg».proof.Proof.RefValue
import proofs.«118904_j7687991460410_2_alg».proof.Proof.FiniteInputs
import proofs.«118904_j7687991460410_2_alg».proof.Proof.RelationLaw
import Idealize.ShloMosaic.Adequacy
import Idealize.ShloMosaic.Init

noncomputable section

namespace Cert.Proof

open Idealize.ShloMosaic Idealize.ShloMosaic.TcCoe Idealize.SL.Sem Cert.RelationSpec

/-- At real matrices the kernel's result is the coercion of its real formula: the body's one element is the scaled
    sum of channel totals, dropping the unit axes keeps it, and the weight's word is the real 1. -/
theorem kernel_value (m : (ℓ : Loc Cert.KernelIdeal.nD Cert.KernelIdeal.τ Cert.KernelIdeal.sig) → Buf (Elt Ideal) ℓ)
    (c : Dev Cert.KernelIdeal.nD) (x t : Fin 128 → Fin 1024 → ℝ)
    (h0 : m ((c.tc : Thread Cert.KernelIdeal.nD Cert.KernelIdeal.τ).loc Cert.KernelIdeal.main_arg0) = arr x)
    (h1 : m ((c.tc : Thread Cert.KernelIdeal.nD Cert.KernelIdeal.τ).loc Cert.KernelIdeal.main_arg1) = arr t) :
    Cert.KernelIdeal.Hand.value (F := Ideal) m c = fun _ => ((kernelReal x t : ℝ) : EReal) := by
  unfold Cert.KernelIdeal.Hand.value Cert.KernelIdeal.Hand.result
  rw [h0, h1, Cert.KernelValue.body_value]
  funext i
  show Ideal.ofBits .f32 0x3F800000#32 * ((kernelMid x t : ℝ) : EReal) = _
  rw [w_one, ← EReal.coe_mul]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both runs end at the coercion of one real: the kernel's at its moment formula, the reference's at its pair
    formula, of the real matrices the finite arguments are. -/
theorem algebraic : Cert.algebraic_KernelIdeal_ReferenceIdeal := by
  intro m ρ m' ρ' hpre hagree
  refine ⟨fun c => Cert.KernelIdeal.Hand.value (F := Ideal) m c, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨x, t, h0, h1⟩ := Cert.FiniteInputs.real_of_pre _ _ (hpre c)
  show _ = Cert.KernelIdeal.Hand.value (F := Ideal) m c
  rw [(hagree c).1, (hagree c).2, Cert.ReferenceIdeal.Read.val_main_v16_eq, kernel_value m c x t h0 h1, h0, h1,
    Cert.RefValue.ref_value, Cert.RelationLaw.kernelReal_eq_refReal]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
